-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S800000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S800000 .f32 := Host.absf main_arg4
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  main_v23

def fn {F : FTy → Type} [FloatOps F] (main_arg0 : FVec F S50000x64 .f32) (main_arg1 : FVec F S64x64 .f32) (main_arg2 : FVec F S64 .f32) (main_arg3 : FVec F S64 .f32) (main_arg4 : FVec F S800000 .f32) (main_arg5 : IVec S800000 32) (main_arg6 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S10000x64 : Shape := ⟨2, ![10000, 64]⟩
abbrev S_ : Shape := ⟨0, ![]⟩
abbrev S800000x1 : Shape := ⟨2, ![800000, 1]⟩
abbrev S800000x64 : Shape := ⟨2, ![800000, 64]⟩
abbrev S25000x128 : Shape := ⟨2, ![25000, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S5000x128 : Shape := ⟨2, ![5000, 128]⟩

abbrev nBuf : Space → Nat
  | .hbm => 40
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S800000, .f32⟩
  | .hbm, ⟨5, _⟩ => ⟨S800000, .i32⟩
  | .hbm, ⟨6, _⟩ => ⟨S800000, .i32⟩
  | .hbm, ⟨7, _⟩ => ⟨S64x64, .f32⟩
  | .hbm, ⟨8, _⟩ => ⟨S64x64, .bf16⟩
  | .hbm, ⟨9, _⟩ => ⟨S50000x64, .f32⟩
  | .hbm, ⟨10, _⟩ => ⟨S50000x64, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .bf16⟩
  | .hbm, ⟨20, _⟩ => ⟨S800000x64, .f32⟩
  | .hbm, ⟨21, _⟩ => ⟨S800000x1, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S25000x128, .f32⟩
  | .hbm, ⟨29, _⟩ => ⟨S25000x128, .f32⟩
  | .hbm, ⟨30, _⟩ => ⟨S1x64, .f32⟩
  | .hbm, ⟨31, _⟩ => ⟨S1x1x1x64, .f32⟩
  | .hbm, ⟨32, _⟩ => ⟨S1x1x2x64, .f32⟩
  | .hbm, ⟨33, _⟩ => ⟨S1x128, .f32⟩
  | .hbm, ⟨34, _⟩ => ⟨S1x64, .f32⟩
  | .hbm, ⟨35, _⟩ => ⟨S1x1x1x64, .f32⟩
  | .hbm, ⟨36, _⟩ => ⟨S1x1x2x64, .f32⟩
  | .hbm, ⟨37, _⟩ => ⟨S1x128, .f32⟩
  | .hbm, ⟨38, _⟩ => ⟨S25000x128, .f32⟩
  | .hbm, ⟨39, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .bf16⟩
  | .local _ .vmem, ⟨3, _⟩ => ⟨S10000x64, .f32⟩
  | .local _ .vmem, ⟨4, _⟩ => ⟨S10000x64, .f32⟩
  | .local _ .vmem, ⟨5, _⟩ => ⟨S10000x64, .bf16⟩
  | .local _ .vmem, ⟨6, _⟩ => ⟨S10000x64, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S64x64_S64x64_1_0 : S64x64.Transposes [1, 0] S64x64
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S10000x64_S10000x64_0_0 : (Rect.unit (s := S10000x64) ![0, 0] S10000x64.size inb_S10000x64_S10000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000x64_S25000x128 : S50000x64.ShapeCasts S25000x128
  shapeCasts_S64_S1x64 : S64.ShapeCasts S1x64
  shapeCasts_S1x64_S1x1x1x64 : S1x64.ShapeCasts S1x1x1x64
  bcast_S1x1x1x64_S1x1x2x64_0_1_2_3 : S1x1x1x64.BroadcastsInDim S1x1x2x64 (![0, 1, 2, 3] : Fin 4 → Fin S1x1x2x64.rank)
  shapeCasts_S1x1x2x64_S1x128 : S1x1x2x64.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S50000x64 : S25000x128.ShapeCasts S50000x64
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .bf16 = 32 ∨ (Rect.block (s := S50000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S25000x128.size a
  hwx1_4 : ∀ i : grid1.Coords, EltTy.bits .f32 = 32 ∨ (Rect.block (s := S25000x128) S5000x128.size (cc1_transform_4 i) (hinb1_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S10000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩

abbrev nBuf : Space → Nat
  | .hbm => 50
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S800000, .f32⟩
  | .hbm, ⟨5, _⟩ => ⟨S800000, .i32⟩
  | .hbm, ⟨6, _⟩ => ⟨S800000, .i32⟩
  | .hbm, ⟨7, _⟩ => ⟨S50000x64, .f32⟩
  | .hbm, ⟨8, _⟩ => ⟨S1x64, .f32⟩
  | .hbm, ⟨9, _⟩ => ⟨S50000x64, .f32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x1, .f32⟩
  | .hbm, ⟨21, _⟩ => ⟨S800000x64, .f32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S_, .f32⟩
  | .hbm, ⟨33, _⟩ => ⟨S50000x64, .f32⟩
  | .hbm, ⟨34, _⟩ => ⟨S50000x64, .i1⟩
  | .hbm, ⟨35, _⟩ => ⟨S_, .f32⟩
  | .hbm, ⟨36, _⟩ => ⟨S50000x64, .f32⟩
  | .hbm, ⟨37, _⟩ => ⟨S50000x64, .i1⟩
  | .hbm, ⟨38, _⟩ => ⟨S_, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_cst_0 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_cst_1 : Ref sig .tc := ⟨.hbm, 38, rfl⟩
abbrev main_call0_call0_call0_v0 : Ref sig .tc := ⟨.hbm, 39, rfl⟩
abbrev main_call0_call0_call0_v1 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_v21 : Ref sig .tc := ⟨.hbm, 49, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x64_S64x64_S50000x64_1_1_0_0_n_n_wf : DotDims.WF S50000x64 S64x64 S50000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel program's run with its RESULT read: every weakly fair execution of @main — a transpose and a
  rounding of the weight on the host, the matrix-product region, the host's gather / scale / scatter-add and the
  lane-packing reshapes, the combine region, the reshape back — terminates without a fault, the seven argument arrays
  as launched, and the result array holding the last boundary's contents at that buffer: the fold of the host
  stretches and of the two regions' write-backs from the launch memory.  The launch is the one the frame uses, over
  the same five segments; only the final read also reads the result buffer.
-/
import proofs.«129786_j78821239816696_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main from any memory with zero counters: the result array ends at the last boundary's contents, the
    arguments as launched. -/
theorem run_result : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Hand

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.MatmulBlock.lean ====
/-
  The matrix-product body at one grid point, read at an index.

  The body rounds its block of the features to bf16, multiplies it on the matrix unit with the (already rounded,
  already transposed) weight into a zero accumulator, stores the product and a bf16 rounding of it. At the exact
  values a change of float format is the identity, so both stored blocks hold, at row p and column q,
  the sum over k of x0[p, k] · x1[k, q].
-/
import proofs.«129786_j78821239816696_2_alg».proof.Proof.Gen.KernelIdeal.Skeleton
import proofs.«129786_j78821239816696_2_alg».proof.Proof.LibDotRow
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The product block at (p, q): the row of the left block against the column of the right one. -/
theorem pay1_apply (x0 : Vec Ideal S10000x64 .f32) (x1 : Vec Ideal S64x64 .bf16) (p : Fin 10000) (q : Fin 64) :
    k0_pay1 (F := Ideal) x0 x1 (ix2 p q) = ∑ k : Fin 64, x0 (ix2 p k) * x1 (ix2 k q) := by
  unfold k0_pay1
  refine (Ideal.matmul_constant_zero_apply dot_S10000x64_S64x64_S10000x64_1_0_0_1_n_n none
    (truncf .bf16 x0 bitsLt_bf16_f32) (shapeCast S64x64 x1 shapeCasts_S64x64_S64x64) (ix2 p q)).trans ?_
  rw [shapeCast_self]
  exact DotRow.sum_contr dot_S10000x64_S64x64_S10000x64_1_0_0_1_n_n rfl rfl rfl rfl (fun _ _ => rfl) (fun _ _ => rfl)
    x0 x1 p q

/-- The rounded copy of the product block holds the same exact values. -/
theorem pay2_apply (x0 : Vec Ideal S10000x64 .f32) (x1 : Vec Ideal S64x64 .bf16) (p : Fin 10000) (q : Fin 64) :
    k0_pay2 (F := Ideal) x0 x1 (ix2 p q) = ∑ k : Fin 64, x0 (ix2 p k) * x1 (ix2 k q) := by
  unfold k0_pay2
  exact pay1_apply x0 x1 p q

end Cert.KernelIdeal.Hand

end
-- ==== Proof.Region0.lean ====
/-
  The matrix-product region as ONE function of the arrays it is entered with.

  The region walks five row blocks of 10000 rows. At point t it reads rows 10000·t … 10000·t + 9999 of the features
  and the whole 64 × 64 right operand, and writes back the block of products to the same rows of both results. Every row
  of the results lies in exactly the block of the point (row / 10000), so after the region both result arrays hold, at
  (n, q), the sum over k of features[n, k] · right[k, q].
-/
import proofs.«129786_j78821239816696_2_alg».proof.Proof.Gen.KernelIdeal.Frame
import proofs.«129786_j78821239816696_2_alg».proof.Proof.MatmulBlock
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The product of a 50000 × 64 array with a 64 × 64 one, index by index. -/
def rowsTimes (f : S50000x64.Idx → EReal) (g : S64x64.Idx → EReal) : S50000x64.Idx → EReal :=
  fun i => ∑ k : Fin 64, f (ix2 (i 0) k) * g (ix2 k (i 1))

/-- The printed index maps over the grid: the row-blocked windows sit at block (t, 0), the right operand at (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the features' block at point t is row 10000·t + p of the array. -/
theorem featBlock_apply (c : Dev nD) (t : Fin cfg0.N) (p : Fin 10000) (k : Fin 64) (n : Fin 50000)
    (hn : n.val = t.val * 10000 + p.val) :
    (iblk0 V c 0 t : Vec Ideal S10000x64 .f32) (ix2 p k) = (V c main_arg0 : S50000x64.Idx → EReal) (ix2 n k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t 0 * 10000 + 1 * p.val = n.val; rw [e0, hn]; omega
  | ⟨1, _⟩ => show win0_0.index t 1 * 64 + 1 * k.val = k.val; rw [e1]; omega

/-- The right operand's block at any point is the whole array. -/
theorem rightBlock_apply (c : Dev nD) (t : Fin cfg0.N) (k q : Fin 64) :
    (iblk0 V c 1 t : Vec Ideal S64x64 .bf16) (ix2 k q) = (V c main_v1 : S64x64.Idx → EReal) (ix2 k q) := by
  obtain ⟨-, -, e0, e1, -⟩ := blockIdx0 t
  unfold iblk0
  rw [View.read_apply]
  show V c main_v1 _ = V c main_v1 _
  congr 1
  funext a
  apply Fin.ext
  match a with
  | ⟨0, _⟩ => show win0_1.index t 0 * 64 + 1 * k.val = k.val; rw [e0]; omega
  | ⟨1, _⟩ => show win0_1.index t 1 * 64 + 1 * q.val = q.val; rw [e1]; omega

/-- What point t writes back to the f32 result is block t of the product. -/
theorem flushed0_2_eq (c : Dev nD) (t : Fin cfg0.N) :
    (dat0 V c).flushed 2 t = ((cfg0.win 2).blk t).view.read (Elt Ideal) (rowsTimes (V c main_arg0) (V c main_v1)) := by
  show (cfg0.win 2).cut (grid0.coords t) ((dat0 V c).after 2 t) = _
  rw [after0_2]
  unfold out0_2
  rw [View.canon_unit_zero zeros2]
  simp only [View.ld_unit_zero (S := S10000x64) zeros2, View.ld_unit_zero (S := S64x64) zeros2]
  obtain ⟨-, -, -, -, e0, e1, -⟩ := blockIdx0 t
  have ht : t.val < 5 := by have hN : cfg0.N = 5 := N_0; have := t.isLt; omega
  funext j
  obtain ⟨p, q, rfl⟩ : ∃ (p : Fin 10000) (q : Fin 64), j = ix2 p q := ⟨j 0, j 1, eq_ix2 j⟩
  have hi : ((cfg0.win 2).blk t).view.emb (ix2 p q) = ix2 (⟨t.val * 10000 + p.val, by omega⟩ : Fin 50000) q := by
    funext a
    apply Fin.ext
    match a with
    | ⟨0, _⟩ => show win0_2.index t 0 * 10000 + 1 * p.val = t.val * 10000 + p.val; rw [e0]; omega
    | ⟨1, _⟩ => show win0_2.index t 1 * 64 + 1 * q.val = q.val; rw [e1]; omega
  show k0_pay1 (iblk0 V c 0 t) (iblk0 V c 1 t) (ix2 p q)
    = rowsTimes (V c main_arg0) (V c main_v1) (((cfg0.win 2).blk t).view.emb (ix2 p q))
  rw [hi]
  refine (pay1_apply (iblk0 V c 0 t) (iblk0 V c 1 t) p q).trans ?_
  refine Finset.sum_congr rfl fun k _ => ?_
  rw [featBlock_apply V c t p k ⟨t.val * 10000 + p.val, by omega⟩ rfl, rightBlock_apply V c t k q]

/-- The same for the bf16 result. -/
theorem flushed0_3_eq (c : Dev nD) (t : Fin cfg0.N) :
    (dat0 V c).flushed 3 t = ((cfg0.win 3).blk t).view.read (Elt Ideal) (rowsTimes (V c main_arg0) (V c main_v1)) := by
  show (cfg0.win 3).cut (grid0.coords t) ((dat0 V c).after 3 t) = _
  rw [after0_3]
  unfold out0_3
  rw [View.canon_unit_zero zeros2]
  simp only [View.ld_unit_zero (S := S10000x64) zeros2, View.ld_unit_zero (S := S64x64) zeros2]
  obtain ⟨-, -, -, -, -, -, e0, e1⟩ := blockIdx0 t
  have ht : t.val < 5 := by have hN : cfg0.N = 5 := N_0; have := t.isLt; omega
  funext j
  obtain ⟨p, q, rfl⟩ : ∃ (p : Fin 10000) (q : Fin 64), j = ix2 p q := ⟨j 0, j 1, eq_ix2 j⟩
  have hi : ((cfg0.win 3).blk t).view.emb (ix2 p q) = ix2 (⟨t.val * 10000 + p.val, by omega⟩ : Fin 50000) q := by
    funext a
    apply Fin.ext
    match a with
    | ⟨0, _⟩ => show win0_3.index t 0 * 10000 + 1 * p.val = t.val * 10000 + p.val; rw [e0]; omega
    | ⟨1, _⟩ => show win0_3.index t 1 * 64 + 1 * q.val = q.val; rw [e1]; omega
  show k0_pay2 (iblk0 V c 0 t) (iblk0 V c 1 t) (ix2 p q)
    = rowsTimes (V c main_arg0) (V c main_v1) (((cfg0.win 3).blk t).view.emb (ix2 p q))
  rw [hi]
  refine (pay2_apply (iblk0 V c 0 t) (iblk0 V c 1 t) p q).trans ?_
  refine Finset.sum_congr rfl fun k _ => ?_
  rw [featBlock_apply V c t p k ⟨t.val * 10000 + p.val, by omega⟩ rfl, rightBlock_apply V c t k q]

/-- An index of a result array is in point t's block iff its row is among the block's rows. -/
theorem mem_blk0_2 (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v2_0).slice (win0_2.rect t)).set ↔ _
  rw [View.set_slice_whole, Rect.mem_set_unit]
  exact Iff.rfl

theorem mem_blk0_3 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v2_1).slice (win0_3.rect t)).set ↔ _
  rw [View.set_slice_whole, Rect.mem_set_unit]
  exact Iff.rfl

/-- Row n of a result lies in the block of point n / 10000. -/
theorem covered0_2 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 5 := N_0
  refine ⟨⟨(i 0).val / 10000, by omega⟩, flush0_2 _, ?_⟩
  obtain ⟨-, -, -, -, e0, e1, -⟩ := blockIdx0 ⟨(i 0).val / 10000, by omega⟩
  rw [mem_blk0_2]
  intro a
  match a with
  | ⟨0, _⟩ =>
    show win0_2.index _ 0 * 10000 ≤ (i 0).val ∧ (i 0).val < win0_2.index _ 0 * 10000 + 10000
    rw [e0]; show (i 0).val / 10000 * 10000 ≤ (i 0).val ∧ (i 0).val < (i 0).val / 10000 * 10000 + 10000; omega
  | ⟨1, _⟩ =>
    show win0_2.index _ 1 * 64 ≤ (i 1).val ∧ (i 1).val < win0_2.index _ 1 * 64 + 64
    rw [e1]; omega

theorem covered0_3 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  refine ⟨⟨(i 0).val / 10000, by omega⟩, flush0_3 _, ?_⟩
  obtain ⟨-, -, -, -, -, -, e0, e1⟩ := blockIdx0 ⟨(i 0).val / 10000, by omega⟩
  rw [mem_blk0_3]
  intro a
  match a with
  | ⟨0, _⟩ =>
    show win0_3.index _ 0 * 10000 ≤ (i 0).val ∧ (i 0).val < win0_3.index _ 0 * 10000 + 10000
    rw [e0]; show (i 0).val / 10000 * 10000 ≤ (i 0).val ∧ (i 0).val < (i 0).val / 10000 * 10000 + 10000; omega
  | ⟨1, _⟩ =>
    show win0_3.index _ 1 * 64 ≤ (i 1).val ∧ (i 1).val < win0_3.index _ 1 * 64 + 64
    rw [e1]; omega

/-- After the region the f32 result is the product of the arrays the region was entered with. -/
theorem product_f32 (c : Dev nD) : (dat0 V c).arrAt 2 cfg0.N = rowsTimes (V c main_arg0) (V c main_v1) :=
  (dat0 V c).arrAt_eq_of_cover 2 _ (fun t _ => flushed0_2_eq V c t) covered0_2

/-- And so is the bf16 result. -/
theorem product_bf16 (c : Dev nD) : (dat0 V c).arrAt 3 cfg0.N = rowsTimes (V c main_arg0) (V c main_v1) :=
  (dat0 V c).arrAt_eq_of_cover 3 _ (fun t _ => flushed0_3_eq V c t) covered0_3

end Cert.KernelIdeal.Hand

end
-- ==== Proof.LibBitWords.lean ====
/-
  Truth values as machine words, and those words as extended reals.

  A comparison yields one bit. A kernel widens the bit to 32 bits and converts it as a signed integer; a host program
  converts the bit as an unsigned integer; either way the float is 1 for true and 0 for false. Also: the comparison
  "equal" of two naturals below 2³² carried as 32-bit words is their equality; a select on a decided bit is the `if`;
  the float comparisons "equal" and "not equal" of two extended reals are the decided propositions; and one minus the
  indicator of a condition is the indicator of its negation. Nothing here mentions a program or a shape.
-/
import Idealize.ShloMosaic.PureOps.Ideal

noncomputable section

namespace BitWords

open Idealize.ShloMosaic

/-- A truth value as one bit, widened to 32 bits and converted as a SIGNED integer, is 1 or 0. -/
theorem signed_ofBool (p : Bool) :
    FloatOps.sitofp (F := Ideal) .f32 ((BitVec.ofBool p).setWidth 32) = if p then (1 : EReal) else 0 := by
  show ((((BitVec.ofBool p).setWidth 32).toInt : ℝ) : EReal) = _
  cases p
  · have h : ((BitVec.ofBool false).setWidth 32).toInt = 0 := by decide
    rw [h]; simp
  · have h : ((BitVec.ofBool true).setWidth 32).toInt = 1 := by decide
    rw [h]; simp

/-- A truth value as one bit converted as an UNSIGNED integer is 1 or 0. -/
theorem unsigned_ofBool (p : Bool) :
    FloatOps.uitofp (F := Ideal) .f32 (BitVec.ofBool p) = if p then (1 : EReal) else 0 := by
  show (((BitVec.ofBool p).toNat : ℝ) : EReal) = _
  cases p
  · have h : (BitVec.ofBool false).toNat = 0 := by decide
    rw [h]; simp
  · have h : (BitVec.ofBool true).toNat = 1 := by decide
    rw [h]; simp

/-- Two naturals below 2³² are equal as 32-bit words exactly when they are equal. -/
theorem cmpi_eq_ofNat (a b : Nat) (ha : a < 4294967296) (hb : b < 4294967296) :
    IntOp.cmpi .eq (BitVec.ofNat 32 a) (BitVec.ofNat 32 b) = BitVec.ofBool (decide (a = b)) := by
  show BitVec.ofBool (BitVec.ofNat 32 a == BitVec.ofNat 32 b) = _
  refine congrArg BitVec.ofBool ?_
  by_cases h : a = b
  · subst h; simp
  · rw [decide_eq_false h]
    refine beq_false_of_ne fun e => h ?_
    have e' := congrArg BitVec.toNat e
    rw [BitVec.toNat_ofNat, BitVec.toNat_ofNat] at e'
    omega

/-- A select on a decided bit is the `if`. -/
theorem select_ofBool {α : Type} (p : Bool) (a b : α) : Scalar.select (BitVec.ofBool p) a b = if p then a else b := by
  cases p
  · exact if_neg (by decide)
  · exact if_pos rfl

/-- The comparison "equal" of two extended reals, as a bit. -/
theorem cmp_oeq (x y : EReal) : FloatOps.cmpf (F := Ideal) (φ := .f32) .oeq x y = BitVec.ofBool (decide (x = y)) := rfl
/-- The comparison "not equal" of two extended reals, as a bit. -/
theorem cmp_one (x y : EReal) : FloatOps.cmpf (F := Ideal) (φ := .f32) .one x y = BitVec.ofBool (decide (x ≠ y)) := rfl

/-- One minus the indicator of a condition is the indicator of its negation. -/
theorem one_sub_ind (p : Prop) [Decidable p] : (1 : EReal) - (if p then 1 else 0) = if p then 0 else 1 := by
  by_cases h : p
  · rw [if_pos h, if_pos h]
    rw [← EReal.coe_one, ← EReal.coe_sub]; simp
  · rw [if_neg h, if_neg h]
    rw [← EReal.coe_one, ← EReal.coe_zero, ← EReal.coe_sub]; simp

end BitWords

end
-- ==== Proof.SeluScalar.lean ====
/-
  The two spellings of SELU on one extended real, and their equality.

  With s and a the two SELU constants (kept as their binary words: the same words on both sides are never evaluated),
  the reference computes  s · (if x > 0 then x else a · (exp (if x > 0 then 0 else x) − 1))  — the inner choice keeps the
  exponential's argument non-positive — and the kernel computes  s · (if x > 0 then x else a · (exp (min x 0) − 1)).
  The two differ only in how the exponential's argument is clamped: min x 0 is 0 when x > 0 and x otherwise, on every
  extended real, the infinities included. The literal 1.0 is the real number 1.
-/
import Idealize.ShloMosaic.PureOps.Ideal
import Idealize.ShloMosaic.PureOps.Ideal.Laws
import proofs.«129786_j78821239816696_2_alg».proof.Proof.LibBitWords

noncomputable section

namespace Cert.SeluScalar

open Idealize.ShloMosaic

/-- The f32 word of 1.0 is the real number 1. -/
theorem one_word : Ideal.ofBits .f32 0x3F800000#32 = (1 : EReal) := by
  simp [Ideal.ofBits, Ideal.ieee]
  first
    | (rw [← EReal.coe_mul]; norm_num)
    | (norm_cast; norm_num)
    | (rw [← EReal.coe_mul, ← EReal.coe_one]; exact congrArg _ (by norm_num))

/-- "x > 0" as the one-bit result of the ordered comparison against the zero word. -/
def pos (x : EReal) : BitVec 1 := FloatOps.cmpf (F := Ideal) (φ := .f32) .ogt x (Ideal.ofBits .f32 0x00000000#32)

theorem pos_eq (x : EReal) : pos x = BitVec.ofBool (decide (0 < x)) := by
  unfold pos
  rw [Ideal.cmpf_def, Ideal.ofBits_zero_f32]
  rfl

/-- SELU as the reference spells it. -/
def ref (x : EReal) : EReal :=
  Ideal.ofBits .f32 0x3F867D5F#32 *
    Scalar.select (pos x) x
      (Ideal.ofBits .f32 0x3FD62D7D#32 * (Ideal.exp (Scalar.select (pos x) (Ideal.ofBits .f32 0x00000000#32) x) - 1))

/-- SELU as the kernel spells it. -/
def ker (x : EReal) : EReal :=
  Ideal.ofBits .f32 0x3F867D5F#32 *
    Scalar.select (pos x) x
      (Ideal.ofBits .f32 0x3FD62D7D#32 *
        (Ideal.exp (min x (Ideal.ofBits .f32 0x00000000#32)) - Ideal.ofBits .f32 0x3F800000#32))

/-- Clamping by a minimum with 0 is the choice "0 where positive, else x". -/
theorem min_zero_eq (x : EReal) :
    min x (Ideal.ofBits .f32 0x00000000#32) = Scalar.select (pos x) (Ideal.ofBits .f32 0x00000000#32) x := by
  rw [pos_eq, BitWords.select_ofBool, Ideal.ofBits_zero_f32]
  by_cases h : (0 : EReal) < x
  · rw [decide_eq_true h, if_pos rfl]; exact min_eq_right h.le
  · rw [decide_eq_false h, if_neg (by decide)]; exact min_eq_left (not_lt.mp h)

theorem ker_eq_ref (x : EReal) : ker x = ref x := by
  unfold ker ref
  rw [min_zero_eq, one_word]

end Cert.SeluScalar

end
-- ==== Proof.CombineBlock.lean ====
/-
  The combine body at one grid point, read at an index.

  On a block of 5000 lane-packed rows the body forms  x = h · w + g + b  (w and b one packed row each, broadcast down the
  block) and stores SELU of x in the kernel's spelling: entry (r, c) of the stored block is that scalar function of
  h[r, c] · w[0, c] + g[r, c] + b[0, c].
-/
import proofs.«129786_j78821239816696_2_alg».proof.Proof.Gen.KernelIdeal.Skeleton
import proofs.«129786_j78821239816696_2_alg».proof.Proof.SeluScalar
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-- A packed row broadcast down the block reads, at (r, c), the row's entry c. -/
theorem rowBroadcast_apply (v : Vec Ideal S1x128 .f32) (r : Fin 5000) (cc : Fin 128) :
    broadcastTo S5000x128 v broadcasts_S1x128_S5000x128 (ix2 r cc) = v (ix2 (0 : Fin 1) cc) :=
  broadcastTo_apply v broadcasts_S1x128_S5000x128 (ix2 r cc) (ix2 (0 : Fin 1) cc) fun a => by
    match a with
    | ⟨0, _⟩ => rfl
    | ⟨1, _⟩ => rfl

/-- The stored block at (r, c). -/
theorem combine_apply (v0 v2 : Vec Ideal S5000x128 .f32) (v4 v6 : Vec Ideal S1x128 .f32) (r : Fin 5000) (cc : Fin 128) :
    k1_pay1 (F := Ideal) v0 v2 v4 v6 (ix2 r cc)
      = Cert.SeluScalar.ker (v0 (ix2 r cc) * v4 (ix2 (0 : Fin 1) cc) + v2 (ix2 r cc) + v6 (ix2 (0 : Fin 1) cc)) := by
  unfold k1_pay1 Cert.SeluScalar.ker Cert.SeluScalar.pos
  simp only [shapeCast_self]
  rw [← rowBroadcast_apply v4 r cc, ← rowBroadcast_apply v6 r cc]
  rfl

end Cert.KernelIdeal.Hand

end
-- ==== Proof.Region1.lean ====
/-
  The combine region as ONE function of the arrays it is entered with.

  The region walks five blocks of 5000 lane-packed rows. At point t it reads rows 5000·t … 5000·t + 4999 of the packed
  hidden features and of the packed aggregate, and the two packed parameter rows whole, and writes back SELU of
  h · w + g + b to the same rows of its result. Every row lies in the block of the point (row / 5000), so after the
  region the result holds that function of the entry arrays at every index.
-/
import proofs.«129786_j78821239816696_2_alg».proof.Proof.Gen.KernelIdeal.Frame
import proofs.«129786_j78821239816696_2_alg».proof.Proof.CombineBlock
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2' : (![0, 0] : Fin 2 → Nat) = fun _ => 0 := funext fun a => by fin_cases a <;> rfl

/-- SELU (the kernel's spelling) of h · w + g + b over the packed arrays, index by index. -/
def combineAll (h g : S25000x128.Idx → EReal) (w b : S1x128.Idx → EReal) : S25000x128.Idx → EReal :=
  fun i => Cert.SeluScalar.ker (h i * w (ix2 (0 : Fin 1) (i 1)) + g i + b (ix2 (0 : Fin 1) (i 1)))

/-- The printed index maps over the grid: the row-blocked windows sit at block (t, 0), the parameter rows at (0, 0). -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of the packed hidden features' block at point t is row 5000·t + r of the array. -/
theorem hidBlock_apply (c : Dev nD) (t : Fin cfg1.N) (r : Fin 5000) (k : Fin 128) (n : Fin 25000)
    (hn : n.val = t.val * 5000 + r.val) :
    (iblk1 V c 0 t : Vec Ideal S5000x128 .f32) (ix2 r k) = (V c main_v17 : S25000x128.Idx → EReal) (ix2 n k) := by
  obtain ⟨e0, e1, -⟩ := blockIdx1 t
  unfold iblk1
  rw [View.read_apply]
  show V c main_v17 _ = V c main_v17 _
  congr 1
  funext a
  apply Fin.ext
  match a with
  | ⟨0, _⟩ => show win1_0.index t 0 * 5000 + 1 * r.val = n.val; rw [e0, hn]; omega
  | ⟨1, _⟩ => show win1_0.index t 1 * 128 + 1 * k.val = k.val; rw [e1]; omega

/-- The same for the packed aggregate. -/
theorem aggBlock_apply (c : Dev nD) (t : Fin cfg1.N) (r : Fin 5000) (k : Fin 128) (n : Fin 25000)
    (hn : n.val = t.val * 5000 + r.val) :
    (iblk1 V c 1 t : Vec Ideal S5000x128 .f32) (ix2 r k) = (V c main_v18 : S25000x128.Idx → EReal) (ix2 n k) := by
  obtain ⟨-, -, e0, e1, -⟩ := blockIdx1 t
  unfold iblk1
  rw [View.read_apply]
  show V c main_v18 _ = V c main_v18 _
  congr 1
  funext a
  apply Fin.ext
  match a with
  | ⟨0, _⟩ => show win1_1.index t 0 * 5000 + 1 * r.val = n.val; rw [e0, hn]; omega
  | ⟨1, _⟩ => show win1_1.index t 1 * 128 + 1 * k.val = k.val; rw [e1]; omega

/-- The packed scale row's block at any point is the whole row. -/
theorem scaleBlock_apply (c : Dev nD) (t : Fin cfg1.N) (k : Fin 128) :
    (iblk1 V c 2 t : Vec Ideal S1x128 .f32) (ix2 (0 : Fin 1) k) = (V c main_v22 : S1x128.Idx → EReal) (ix2 (0 : Fin 1) k) := by
  obtain ⟨-, -, -, -, e0, e1, -⟩ := blockIdx1 t
  unfold iblk1
  rw [View.read_apply]
  show V c main_v22 _ = V c main_v22 _
  congr 1
  funext a
  apply Fin.ext
  match a with
  | ⟨0, _⟩ => show win1_2.index t 0 * 1 + 1 * 0 = 0; rw [e0]
  | ⟨1, _⟩ => show win1_2.index t 1 * 128 + 1 * k.val = k.val; rw [e1]; omega

/-- The packed bias row's block at any point is the whole row. -/
theorem biasBlock_apply (c : Dev nD) (t : Fin cfg1.N) (k : Fin 128) :
    (iblk1 V c 3 t : Vec Ideal S1x128 .f32) (ix2 (0 : Fin 1) k) = (V c main_v26 : S1x128.Idx → EReal) (ix2 (0 : Fin 1) k) := by
  obtain ⟨-, -, -, -, -, -, e0, e1, -⟩ := blockIdx1 t
  unfold iblk1
  rw [View.read_apply]
  show V c main_v26 _ = V c main_v26 _
  congr 1
  funext a
  apply Fin.ext
  match a with
  | ⟨0, _⟩ => show win1_3.index t 0 * 1 + 1 * 0 = 0; rw [e0]
  | ⟨1, _⟩ => show win1_3.index t 1 * 128 + 1 * k.val = k.val; rw [e1]; omega

/-- What point t writes back is block t of the combined array. -/
theorem flushed1_4_eq (c : Dev nD) (t : Fin cfg1.N) :
    (dat1 V c).flushed 4 t = ((cfg1.win 4).blk t).view.read (Elt Ideal)
      (combineAll (V c main_v17) (V c main_v18) (V c main_v22) (V c main_v26)) := by
  show (cfg1.win 4).cut (grid1.coords t) ((dat1 V c).after 4 t) = _
  rw [after1_4]
  unfold out1_4
  rw [View.canon_unit_zero zeros2']
  simp only [View.ld_unit_zero (S := S5000x128) zeros2', View.ld_unit_zero (S := S1x128) zeros2']
  obtain ⟨-, -, -, -, -, -, -, -, e0, e1⟩ := blockIdx1 t
  have ht : t.val < 5 := by have hN : cfg1.N = 5 := N_1; have := t.isLt; omega
  funext j
  obtain ⟨r, k, rfl⟩ : ∃ (r : Fin 5000) (k : Fin 128), j = ix2 r k := ⟨j 0, j 1, eq_ix2 j⟩
  have hi : ((cfg1.win 4).blk t).view.emb (ix2 r k) = ix2 (⟨t.val * 5000 + r.val, by omega⟩ : Fin 25000) k := by
    funext a
    apply Fin.ext
    match a with
    | ⟨0, _⟩ => show win1_4.index t 0 * 5000 + 1 * r.val = t.val * 5000 + r.val; rw [e0]; omega
    | ⟨1, _⟩ => show win1_4.index t 1 * 128 + 1 * k.val = k.val; rw [e1]; omega
  show k1_pay1 (iblk1 V c 0 t) (iblk1 V c 1 t) (iblk1 V c 2 t) (iblk1 V c 3 t) (ix2 r k)
    = combineAll (V c main_v17) (V c main_v18) (V c main_v22) (V c main_v26) (((cfg1.win 4).blk t).view.emb (ix2 r k))
  rw [hi]
  refine (combine_apply (iblk1 V c 0 t) (iblk1 V c 1 t) (iblk1 V c 2 t) (iblk1 V c 3 t) r k).trans ?_
  rw [hidBlock_apply V c t r k ⟨t.val * 5000 + r.val, by omega⟩ rfl,
    aggBlock_apply V c t r k ⟨t.val * 5000 + r.val, by omega⟩ rfl, scaleBlock_apply V c t k, biasBlock_apply V c t k]
  rfl

/-- An index of the result is in point t's block iff its row is among the block's rows. -/
theorem mem_blk1_4 (t : Fin cfg1.N) (i : S25000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v27).slice (win1_4.rect t)).set ↔ _
  rw [View.set_slice_whole, Rect.mem_set_unit]
  exact Iff.rfl

/-- Row n of the result lies in the block of point n / 5000. -/
theorem covered1_4 (i : S25000x128.Idx) :
    ∃ t : Fin cfg1.N, (cfg1.win 4).flush t = true ∧ i ∈ ((cfg1.win 4).blk t).view.set := by
  have hi0 : (i 0).val < 25000 := (i 0).isLt
  have hi1 : (i 1).val < 128 := (i 1).isLt
  have hN : cfg1.N = 5 := N_1
  refine ⟨⟨(i 0).val / 5000, by omega⟩, flush1_4 _, ?_⟩
  obtain ⟨-, -, -, -, -, -, -, -, e0, e1⟩ := blockIdx1 ⟨(i 0).val / 5000, by omega⟩
  rw [mem_blk1_4]
  intro a
  match a with
  | ⟨0, _⟩ =>
    show win1_4.index _ 0 * 5000 ≤ (i 0).val ∧ (i 0).val < win1_4.index _ 0 * 5000 + 5000
    rw [e0]; show (i 0).val / 5000 * 5000 ≤ (i 0).val ∧ (i 0).val < (i 0).val / 5000 * 5000 + 5000; omega
  | ⟨1, _⟩ =>
    show win1_4.index _ 1 * 128 ≤ (i 1).val ∧ (i 1).val < win1_4.index _ 1 * 128 + 128
    rw [e1]; omega

/-- After the region its result is the combined array of the arrays the region was entered with. -/
theorem combined (c : Dev nD) :
    (dat1 V c).arrAt 4 cfg1.N = combineAll (V c main_v17) (V c main_v18) (V c main_v22) (V c main_v26) :=
  (dat1 V c).arrAt_eq_of_cover 4 _ (fun t _ => flushed1_4_eq V c t) covered1_4

end Cert.KernelIdeal.Hand

end
-- ==== Proof.HostSide.lean ====
/-
  The host operations around the two regions, as functions of what they read.

  Before the first region the weight is transposed and rounded. Between the regions the host gathers the rows of the
  (rounded) hidden features named by the edges' sources, scales each by its edge's weight, adds them into the rows named by
  the edges' destinations, packs pairs of 64-wide rows of the hidden features and of that aggregate into 128-wide rows,
  and lays the scale and the bias out twice along one 128-wide row. After the second region the packed result is
  unpacked. Each buffer the second region is entered with, and the program's result, is read here as those operations
  of the first region's two results and of the arguments, the buffers no operation writes read back to the launch memory.
-/
import proofs.«129786_j78821239816696_2_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The weight as the first region reads it: transposed, then rounded. -/
def weightT (w : FVec Ideal S64x64 .f32) : FVec Ideal S64x64 .bf16 :=
  truncf .bf16 (transpose S64x64 [1, 0] w transposes_S64x64_S64x64_1_0) bitsLt_bf16_f32

/-- The aggregate: rows of the rounded hidden features gathered at the sources (a negative source counted from the end),
    scaled by the edge weights, scatter-added from zero into the destinations' rows. -/
def aggK (hb : FVec Ideal S50000x64 .bf16) (ew : FVec Ideal S800000 .f32) (src dst : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf
      (extf .f32 (Host.gather gather_S50000x64_S800000x1_S800000x64_1_0_n_n_0_1_164 hb
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))) bitsLt_bf16_f32)
      (broadcastInDim S800000x64 ![0, 1] bcast_S800000x1_S800000x64_0_1
        (broadcastInDim S800000x1 ![0] bcast_S800000_S800000x1_0 ew)))

/-- A 64-vector laid out twice along one 128-wide row. -/
def packRow (v : FVec Ideal S64 .f32) : FVec Ideal S1x128 .f32 :=
  shapeCast S1x128
    (broadcastInDim S1x1x2x64 ![0, 1, 2, 3] bcast_S1x1x1x64_S1x1x2x64_0_1_2_3
      (shapeCast S1x1x1x64 (shapeCast S1x64 v shapeCasts_S64_S1x64) shapeCasts_S1x64_S1x1x1x64))
    shapeCasts_S1x1x2x64_S1x128

attribute [local irreducible] Host.gather Host.scatterAdd

/-! ## Before the first region -/

theorem entry0_features (c : Dev nD) : V1 m ρ c main_arg0 = m ((c : Thread nD τ).loc main_arg0) := by
  dsimp only [V1, W1, hostOps0]; after_results

theorem entry0_weight (c : Dev nD) : V1 m ρ c main_v1 = weightT (m ((c : Thread nD τ).loc main_arg1)) := by
  dsimp only [V1, W1, hostOps0]; after_results; rfl

/-- An argument the first stretch does not write is as launched. -/
theorem w1_arg2 (c : Dev nD) : W1 m ρ c (Proc.devRef .tc main_arg2) = m ((c : Thread nD τ).loc main_arg2) := by
  dsimp only [W1, hostOps0]; after_results
theorem w1_arg3 (c : Dev nD) : W1 m ρ c (Proc.devRef .tc main_arg3) = m ((c : Thread nD τ).loc main_arg3) := by
  dsimp only [W1, hostOps0]; after_results
theorem w1_arg4 (c : Dev nD) : W1 m ρ c (Proc.devRef .tc main_arg4) = m ((c : Thread nD τ).loc main_arg4) := by
  dsimp only [W1, hostOps0]; after_results
theorem w1_arg5 (c : Dev nD) : W1 m ρ c (Proc.devRef .tc main_arg5) = m ((c : Thread nD τ).loc main_arg5) := by
  dsimp only [W1, hostOps0]; after_results
theorem w1_arg6 (c : Dev nD) : W1 m ρ c (Proc.devRef .tc main_arg6) = m ((c : Thread nD τ).loc main_arg6) := by
  dsimp only [W1, hostOps0]; after_results

/-! ## Between the regions -/

theorem entry1_hidden (c : Dev nD) :
    V3 m ρ c main_v17 = shapeCast S25000x128 (W2 m ρ c (Proc.devRef .tc main_v2_0)) shapeCasts_S50000x64_S25000x128 := by
  dsimp only [V3, W3, hostOps1]; after_results; rfl

set_option maxHeartbeats 1000000 in
theorem entry1_agg (c : Dev nD) :
    V3 m ρ c main_v18 = shapeCast S25000x128
      (aggK (W2 m ρ c (Proc.devRef .tc main_v2_1)) (W2 m ρ c (Proc.devRef .tc main_arg4))
        (W2 m ρ c (Proc.devRef .tc main_arg5)) (W2 m ρ c (Proc.devRef .tc main_arg6))) shapeCasts_S50000x64_S25000x128 := by
  dsimp only [V3, W3, hostOps1]; after_results_simp; rfl

theorem entry1_scale (c : Dev nD) : V3 m ρ c main_v22 = packRow (W2 m ρ c (Proc.devRef .tc main_arg3)) := by
  dsimp only [V3, W3, hostOps1]; after_results; rfl

theorem entry1_bias (c : Dev nD) : V3 m ρ c main_v26 = packRow (W2 m ρ c (Proc.devRef .tc main_arg2)) := by
  dsimp only [V3, W3, hostOps1]; after_results; rfl

/-! ## After the second region -/

theorem result_unpack (c : Dev nD) :
    W5 m ρ c (Proc.devRef .tc main_v28)
      = shapeCast S50000x64 (W4 m ρ c (Proc.devRef .tc main_v27)) shapeCasts_S25000x128_S50000x64 := by
  dsimp only [W5, hostOps2]; after_results; rfl

end Cert.KernelIdeal.Hand

end
-- ==== Proof.KValue.lean ====
/-
  The idealized kernel program's result as ONE function of its seven arguments.

  Reading the run's last boundary back through the segments: the result is the unpacking of the combine region's
  result; that region leaves SELU (the kernel's spelling) of h · w + g + b over the packed arrays it was entered with;
  those are the packed hidden features, the packed aggregate of the (rounded) hidden features, and the scale and the bias
  laid out twice; and the hidden features, in both precisions, are the product of the features with the transposed weight,
  which the first region leaves. The arguments themselves are never written.
-/
import proofs.«129786_j78821239816696_2_alg».proof.Proof.KRun
import proofs.«129786_j78821239816696_2_alg».proof.Proof.Region0
import proofs.«129786_j78821239816696_2_alg».proof.Proof.Region1
import proofs.«129786_j78821239816696_2_alg».proof.Proof.HostSide

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The hidden features the first region leaves: features times the transposed weight. -/
def hiddenK (f : FVec Ideal S50000x64 .f32) (w : FVec Ideal S64x64 .f32) : S50000x64.Idx → EReal :=
  rowsTimes f (weightT w)

/-- The whole program's result. -/
def kernelOut (f : FVec Ideal S50000x64 .f32) (w : FVec Ideal S64x64 .f32) (b sw : FVec Ideal S64 .f32)
    (ew : FVec Ideal S800000 .f32) (src dst : IVec S800000 32) : FVec Ideal S50000x64 .f32 :=
  shapeCast S50000x64
    (combineAll
      (shapeCast S25000x128 (hiddenK f w) shapeCasts_S50000x64_S25000x128)
      (shapeCast S25000x128 (aggK (hiddenK f w) ew src dst) shapeCasts_S50000x64_S25000x128)
      (packRow sw) (packRow b))
    shapeCasts_S25000x128_S50000x64

/-- After the first region the f32 hidden features are the product. -/
theorem w2_hidden (c : Dev nD) :
    W2 m ρ c (Proc.devRef .tc main_v2_0)
      = hiddenK (m ((c : Thread nD τ).loc main_arg0)) (m ((c : Thread nD τ).loc main_arg1)) := by
  refine (W2_arr m ρ c 2).trans ((product_f32 (V1 m ρ) c).trans ?_)
  rw [entry0_features, entry0_weight]
  rfl

/-- And so are the rounded ones. -/
theorem w2_hidden_rounded (c : Dev nD) :
    W2 m ρ c (Proc.devRef .tc main_v2_1)
      = hiddenK (m ((c : Thread nD τ).loc main_arg0)) (m ((c : Thread nD τ).loc main_arg1)) := by
  refine (W2_arr m ρ c 3).trans ((product_bf16 (V1 m ρ) c).trans ?_)
  rw [entry0_features, entry0_weight]
  rfl

/-- The first region writes no argument. -/
theorem w2_arg2 (c : Dev nD) : W2 m ρ c (Proc.devRef .tc main_arg2) = m ((c : Thread nD τ).loc main_arg2) :=
  (W2_of_ne m ρ c main_arg2 (by decide)).trans (w1_arg2 m ρ c)
theorem w2_arg3 (c : Dev nD) : W2 m ρ c (Proc.devRef .tc main_arg3) = m ((c : Thread nD τ).loc main_arg3) :=
  (W2_of_ne m ρ c main_arg3 (by decide)).trans (w1_arg3 m ρ c)
theorem w2_arg4 (c : Dev nD) : W2 m ρ c (Proc.devRef .tc main_arg4) = m ((c : Thread nD τ).loc main_arg4) :=
  (W2_of_ne m ρ c main_arg4 (by decide)).trans (w1_arg4 m ρ c)
theorem w2_arg5 (c : Dev nD) : W2 m ρ c (Proc.devRef .tc main_arg5) = m ((c : Thread nD τ).loc main_arg5) :=
  (W2_of_ne m ρ c main_arg5 (by decide)).trans (w1_arg5 m ρ c)
theorem w2_arg6 (c : Dev nD) : W2 m ρ c (Proc.devRef .tc main_arg6) = m ((c : Thread nD τ).loc main_arg6) :=
  (W2_of_ne m ρ c main_arg6 (by decide)).trans (w1_arg6 m ρ c)

/-- The last boundary's contents at the result buffer are the closed form of the arguments. -/
theorem result_eq (c : Dev nD) :
    W5 m ρ c (Proc.devRef .tc main_v28)
      = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  rw [result_unpack]
  have h4 : W4 m ρ c (Proc.devRef .tc main_v27) = (dat1 (V3 m ρ) c).arrAt 4 cfg1.N := W4_arr m ρ c 4
  rw [h4, combined (V3 m ρ) c, entry1_hidden, entry1_agg, entry1_scale, entry1_bias,
    w2_hidden, w2_hidden_rounded, w2_arg2, w2_arg3, w2_arg4, w2_arg5, w2_arg6]
  rfl

/-- The run, read: the result array at the closed form of the arguments, the arguments as launched. -/
theorem run : θ_run defs (onTc (τ := τ) (main (F := Ideal))) ⟨m, fun _ => 0, ρ⟩ (fun r => ∀ c : Dev nD,
      r.2.mem ((c.tc : Thread nD τ).loc main_v28)
        = kernelOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_result m ρ)

end Cert.KernelIdeal.Hand

end
-- ==== Proof.RefRun.lean ====
/-
  The reference program's run, read back as one pure term of the seven argument arrays.

  @main is a straight line of host operations once the module-local functions (selu, which calls elu, which
  calls the two select helpers) are unfolded at their call sites: forty-three operations, twenty-four of @main's
  own and nineteen from the functions' bodies, in the printed order. The fold of those operations over the
  launch contents, read at the result buffer, is `out`: the dense product of the features with the weights
  (`hidden`), scaled per column, plus the edge aggregation (`agg`: the rows of `hidden` gathered at the
  normalised source indices, scaled per edge, summed into the rows named by the destination indices), plus the
  bias per column, all through the scaled exponential linear unit (`selu`). Every argument buffer is left as
  it was.
-/
import proofs.«129786_j78821239816696_2_alg».proof.ReferenceIdeal
import proofs.«129786_j78821239816696_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a pure function of the arguments -/

/-- %0: the features times the weights, contracted over the second axis of each. -/
def hidden (f : FVec F S50000x64 .f32) (w : FVec F S64x64 .f32) : FVec F S50000x64 .f32 :=
  Host.dotGeneral dot_S50000x64_S64x64_S50000x64_1_1_0_0_n_n none f w

/-- %16: the rows of `h` gathered at the source indices (a negative index first moved up by the row count:
    the comparison with the broadcast zero, the sum with the broadcast 50000, the select), each scaled by its
    edge weight (broadcast along the row), summed from the broadcast zero into the rows the destination indices name. -/
def agg (h : FVec F S50000x64 .f32) (ew : FVec F S800000 .f32) (src dst : IVec S800000 32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32)))
            src)))
      (broadcastInDim S800000x64 ![0, 1] bcast_S800000x1_S800000x64_0_1
        (broadcastInDim S800000x1 ![0] bcast_S800000_S800000x1_0 ew)))

/-- %21: the scaled exponential linear unit as printed. The outer scale (the second literal, broadcast) times
    the inner unit: where `x` exceeds the broadcast zero, `x`; elsewhere the first literal (broadcast) times
    `expm1` of `x` with its positive entries replaced by zero (the inner select, whose condition is the same
    comparison computed a second time). The scalar conversions are the identity. -/
def selu (x : FVec F S50000x64 .f32) : FVec F S50000x64 .f32 :=
  mulf (broadcastInDim S50000x64 ![] bcast_S_S50000x64 (constant S_ .f32 0x3F867D5F#32))
    (select (cmpf .ogt x (broadcastInDim S50000x64 ![] bcast_S_S50000x64 (constant S_ .f32 0x00000000#32)))
      x
      (mulf (broadcastInDim S50000x64 ![] bcast_S_S50000x64 (id (constant S_ .f32 0x3FD62D7D#32)))
        (Host.expm1
          (select (cmpf .ogt x (broadcastInDim S50000x64 ![] bcast_S_S50000x64 (constant S_ .f32 0x00000000#32)))
            (broadcastInDim S50000x64 ![] bcast_S_S50000x64 (id (constant S_ .f32 0x00000000#32)))
            x))))

/-- %21 of the seven arguments: `selu` of the scaled dense product plus the aggregation plus the bias. -/
def out (f : FVec F S50000x64 .f32) (w : FVec F S64x64 .f32) (b sw : FVec F S64 .f32) (ew : FVec F S800000 .f32)
    (src dst : IVec S800000 32) : FVec F S50000x64 .f32 :=
  selu
    (addf
      (addf
        (mulf (hidden f w)
          (broadcastInDim S50000x64 ![0, 1] bcast_S1x64_S50000x64_0_1 (broadcastInDim S1x64 ![1] bcast_S64_S1x64_1 sw)))
        (agg (hidden f w) ew src dst))
      (broadcastInDim S50000x64 ![0, 1] bcast_S1x64_S50000x64_0_1 (broadcastInDim S1x64 ![1] bcast_S64_S1x64_1 b)))

/-! ## The program as a line of operations -/

/-- @main's forty-three operations in order, the calls unfolded: @main's own twenty-four; then selu's first
    constant; elu's seven up to its call of the first select helper (the zero, its broadcast and the comparison,
    twice over, and a third zero); that helper's three (the zero converted to its own type, broadcast, the
    select); elu's `expm1`, the conversion of its scalar argument, its broadcast and the product; the second
    select helper's one; then selu's second constant, its broadcast and the final product. -/
abbrev ops : List (HloOp τ sig (Elt F)) :=
  [ binary main_arg0 main_arg1 main_v0 (fun l r => Host.dotGeneral dot_S50000x64_S64x64_S50000x64_1_1_0_0_n_n none l r),
    unary main_arg3 main_v1 (broadcastInDim S1x64 ![1] bcast_S64_S1x64_1),
    unary main_v1 main_v2 (broadcastInDim S50000x64 ![0, 1] bcast_S1x64_S50000x64_0_1),
    binary main_v0 main_v2 main_v3 mulf,
    nullary main_c (constantI S_ 32 0#32),
    unary main_c main_v4 (broadcastInDim S800000 ![] bcast_S_S800000),
    binary main_arg5 main_v4 main_v5 (cmpi .slt),
    nullary main_c_0 (constantI S_ 32 50000#32),
    unary main_c_0 main_v6 (broadcastInDim S800000 ![] bcast_S_S800000),
    binary main_arg5 main_v6 main_v7 addi,
    ternary main_v5 main_v7 main_arg5 main_v8 select,
    unary main_v8 main_v9 (broadcastInDim S800000x1 ![0] bcast_S800000_S800000x1_0),
    binary main_v0 main_v9 main_v10 (fun x i => Host.gather gather_S50000x64_S800000x1_S800000x64_1_0_n_n_0_1_164 x i),
    unary main_arg4 main_v11 (broadcastInDim S800000x1 ![0] bcast_S800000_S800000x1_0),
    unary main_v11 main_v12 (broadcastInDim S800000x64 ![0, 1] bcast_S800000x1_S800000x64_0_1),
    binary main_v10 main_v12 main_v13 mulf,
    nullary main_cst (constant S_ .f32 0x00000000#32),
    unary main_cst main_v14 (broadcastInDim S50000x64 ![] bcast_S_S50000x64),
    unary main_arg6 main_v15 (broadcastInDim S800000x1 ![0] bcast_S800000_S800000x1_0),
    ternary main_v14 main_v15 main_v13 main_v16 (fun x i u => Host.scatterAdd scatter_S50000x64_S800000x1_S800000x64_1_0_0_1 x i u),
    binary main_v3 main_v16 main_v17 addf,
    unary main_arg2 main_v18 (broadcastInDim S1x64 ![1] bcast_S64_S1x64_1),
    unary main_v18 main_v19 (broadcastInDim S50000x64 ![0, 1] bcast_S1x64_S50000x64_0_1),
    binary main_v17 main_v19 main_v20 addf,
    TRef.nullary main_call0.cst (constant S_ .f32 0x3FD62D7D#32),
    TRef.nullary main_call0.call0.cst (constant S_ .f32 0x00000000#32),
    TRef.unary main_call0.call0.cst main_call0.call0.v0 (broadcastInDim S50000x64 ![] bcast_S_S50000x64),
    TRef.binary (.of main_v20) main_call0.call0.v0 main_call0.call0.v1 (cmpf .ogt),
    TRef.nullary main_call0.call0.cst_0 (constant S_ .f32 0x00000000#32),
    TRef.unary main_call0.call0.cst_0 main_call0.call0.v2 (broadcastInDim S50000x64 ![] bcast_S_S50000x64),
    TRef.binary (.of main_v20) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S50000x64 ![] bcast_S_S50000x64),
    TRef.ternary main_call0.call0.v3 main_call0.call0.call0.v1 (.of main_v20) main_call0.call0.call0.v2 select,
    TRef.unary main_call0.call0.call0.v2 main_call0.call0.v5 Host.expm1,
    TRef.unary main_call0.cst main_call0.call0.v6 id,
    TRef.unary main_call0.call0.v6 main_call0.call0.v7 (broadcastInDim S50000x64 ![] bcast_S_S50000x64),
    TRef.binary main_call0.call0.v7 main_call0.call0.v5 main_call0.call0.v8 mulf,
    TRef.ternary main_call0.call0.v1 (.of main_v20) main_call0.call0.v8 main_call0.call0.call1.v0 select,
    TRef.nullary main_call0.cst_0 (constant S_ .f32 0x3F867D5F#32),
    TRef.unary main_call0.cst_0 main_call0.v1 (broadcastInDim S50000x64 ![] bcast_S_S50000x64),
    TRef.binary main_call0.v1 main_call0.call0.call1.v0 main_call0.v2 mulf ]

/-- @main is that straight line: the functions' definitions unfolded at their calls and the records at their
    fields, both sides are one chain of steps once sequencing is reassociated. -/
theorem main_eq (c : Dev nD) : main (F := F) c = seq ops := by
  simp only [main, fn_selu.body, fn_elu.body, fn_where.body, fn_where_0.body, seq, bind_assoc, pure_bind]
  rfl

attribute [local irreducible] Host.gather Host.scatterAdd Host.expm1 in
set_option maxRecDepth 8192 in
/-- The fold at the result buffer is `out` by computation: the fold unrolled, each operation's result decides
    whether the buffer read is the one it writes, and the typed references' casts are the identity at these
    literal references. The gather, the scatter and `expm1` are kept folded meanwhile (the contraction is a field
    of the float values, nothing to open): the equation never looks inside them. -/
theorem out_eq (V : Valuation τ sig (Elt F)) :
    after ops V (main_v21 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same, read at the result and the arguments: the result buffer ends at `out` of the seven arguments'
    launch contents, and each argument buffer ends as it began. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v21).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_main m ρ)

end Cert.ReferenceIdeal.RefRun

end
-- ==== Proof.Layout.lean ====
/-
  The host's layout operations around the two regions, read at one element, at the ideal values.

  The weight the first region reads is the transposed weight (the rounding is the identity at the ideal values).
  Packing pairs of 64-wide rows into 128-wide rows, and unpacking them, keeps the row-major position: row n, column o
  of the 50000 by 64 array is row n / 2, column (n mod 2) * 64 + o of the 25000 by 128 array. A 64-vector laid out
  twice along one 128-wide row reads the vector at the column modulo 64.
-/
import proofs.«129786_j78821239816696_2_alg».proof.Proof.HostSide
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-- The transposed (and, at the ideal values, unchanged by the rounding) weight at (k, o) is the weight at (o, k). -/
theorem weightT_apply (w : FVec Ideal S64x64 .f32) (k o : Fin 64) : weightT w (ix2 k o) = w (ix2 o k) := by
  unfold weightT
  rw [truncf_apply]
  exact transpose_apply [1, 0] w transposes_S64x64_S64x64_1_0 (ix2 k o) (ix2 o k) (fun b => by fin_cases b <;> rfl)

/-- Pairs of 64-wide rows packed into 128-wide rows: row n, column o of the 50000 by 64 array sits in row n / 2 at
    column (n mod 2) * 64 + o of the 25000 by 128 array, the two having the same row-major position 64 n + o. -/
theorem pack_apply (X : S50000x64.Idx → EReal) (n : Fin 50000) (o : Fin 64) (r : Fin 25000) (cc : Fin 128)
    (hr : r.val = n.val / 2) (hc : cc.val = (n.val % 2) * 64 + o.val) :
    shapeCast S25000x128 X shapeCasts_S50000x64_S25000x128 (ix2 r cc) = X (ix2 n o) := by
  refine shapeCast_apply X shapeCasts_S50000x64_S25000x128 (ix2 r cc) (ix2 n o) ?_
  rw [Shape.rowMajor_val_two, Shape.rowMajor_val_two]
  show n.val * 64 + o.val = r.val * 128 + cc.val
  omega

/-- The same correspondence read the other way: unpacking the 128-wide rows. -/
theorem unpack_apply (Y : S25000x128.Idx → EReal) (n : Fin 50000) (o : Fin 64) (r : Fin 25000) (cc : Fin 128)
    (hr : r.val = n.val / 2) (hc : cc.val = (n.val % 2) * 64 + o.val) :
    shapeCast S50000x64 Y shapeCasts_S25000x128_S50000x64 (ix2 n o) = Y (ix2 r cc) := by
  refine shapeCast_apply Y shapeCasts_S25000x128_S50000x64 (ix2 n o) (ix2 r cc) ?_
  rw [Shape.rowMajor_val_two, Shape.rowMajor_val_two]
  show r.val * 128 + cc.val = n.val * 64 + o.val
  omega

/-- A 64-vector laid out twice along a 128-wide row reads, at column cc, the vector at cc mod 64: the row is the
    1 by 1 by 2 by 64 array at (0, 0, cc / 64, cc mod 64), which repeats the 1 by 1 by 1 by 64 array along its third
    axis, and that array and the 1 by 64 row are the vector itself. -/
theorem packRow_apply (v : FVec Ideal S64 .f32) (cc : Fin 128) (o : Fin 64) (ho : o.val = cc.val % 64) :
    packRow v (ix2 (0 : Fin 1) cc) = v (ix1 o) := by
  have hq : cc.val / 64 < 2 := by have := cc.isLt; omega
  unfold packRow
  rw [shapeCast_apply _ shapeCasts_S1x1x2x64_S1x128 (ix2 (0 : Fin 1) cc)
      (ix4 (0 : Fin 1) (0 : Fin 1) (⟨cc.val / 64, hq⟩ : Fin 2) o)
      (by rw [Shape.rowMajor_val_four, Shape.rowMajor_val_two]
          show ((0 * 1 + 0) * 2 + cc.val / 64) * 64 + o.val = 0 * 128 + cc.val
          omega),
    broadcastInDim_apply ![0, 1, 2, 3] bcast_S1x1x1x64_S1x1x2x64_0_1_2_3 _
      (ix4 (0 : Fin 1) (0 : Fin 1) (⟨cc.val / 64, hq⟩ : Fin 2) o) (ix4 (0 : Fin 1) (0 : Fin 1) (0 : Fin 1) o)
      (fun a => by fin_cases a <;> rfl),
    shapeCast_apply _ shapeCasts_S1x64_S1x1x1x64 (ix4 (0 : Fin 1) (0 : Fin 1) (0 : Fin 1) o) (ix2 (0 : Fin 1) o)
      (by rw [Shape.rowMajor_val_four, Shape.rowMajor_val_two]
          show 0 * 64 + o.val = ((0 * 1 + 0) * 1 + 0) * 64 + o.val
          omega),
    shapeCast_apply v shapeCasts_S64_S1x64 (ix2 (0 : Fin 1) o) (ix1 o)
      (by rw [Shape.rowMajor_val_one, Shape.rowMajor_val_two]
          show o.val = 0 * 64 + o.val
          omega)]

end Cert.KernelIdeal.Hand

end
-- ==== Proof.LibDotRowT.lean ====
/-
  A matrix product with ONE contracted axis against a TRANSPOSED right operand, read at an index, as a sum over the
  contracted coordinate.

  For dimension numbers `d` of an [M, K] by [N, K] product into [M, N] — both operands contracted on their
  second axis — the sum over the contraction index set of `L (d.lhsIdx (p, f) k) * R (d.rhsIdx (p, f) k)` is
  `∑ k : Fin K, L (p, k) * R (f, k)`: the contraction index is its one coordinate, the left operand's row is the
  output's row and the right operand's ROW the output's column.
-/
import Idealize.ShloMosaic.Lib.ValueIdx
import Idealize.ShloMosaic.PureOps.Ideal.Laws

noncomputable section

namespace Idealize.ShloMosaic.DotRowT

open Idealize.ShloMosaic Idealize.ShloMosaic.ValueIdx

variable {M K N : Nat}

/-- The contraction's sum over its index set is the sum over the contracted coordinate. -/
theorem sum_contr (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 0).val = (j 1).val)
    (L : (⟨2, ![M, K]⟩ : Shape).Idx → EReal) (R : (⟨2, ![N, K]⟩ : Shape).Idx → EReal) (p : Fin M) (f : Fin N) :
    ∑ k : d.contr.Idx, L (d.lhsIdx (ix2 p f) k) * R (d.rhsIdx (ix2 p f) k) = ∑ k : Fin K, L (ix2 p k) * R (ix2 f k) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 f k := by
    funext a; apply Fin.ext
    match a with
    | ⟨0, _⟩ => exact h1 _ _
    | ⟨1, _⟩ =>
      show (d.rhsIdx (ix2 p f) ((contrEquiv1 d K hrank hsize).symm k) 1).val = k.val
      rw [d.rhsIdx_val_of_single hr]
      exact contrEquiv1_symm_val d K hrank hsize k
  rw [el, er]

end Idealize.ShloMosaic.DotRowT

end
-- ==== Proof.RefRead.lean ====
/-
  The reference's result read at one element, at the ideal values.

  The scaled exponential linear unit, a chain of pointwise operations and broadcast scalars, read at an index is
  its scalar spelling of the element (`selu_apply`). The result at row n and column o is that scalar function of
  the dense product there times the column's scale, plus the edge aggregation there, plus the column's bias: the
  two broadcasts of a vector of 64 (to a row, the row down the rows) read the vector at the column
  (`row_apply`, `out_apply`). The dense product there is row n of the features against ROW o of the weights,
  both operands being contracted on their second axis (`hidden_apply`). The aggregation is kept folded.
-/
import proofs.«129786_j78821239816696_2_alg».proof.Proof.RefRun
import proofs.«129786_j78821239816696_2_alg».proof.Proof.SeluScalar
import proofs.«129786_j78821239816696_2_alg».proof.Proof.LibDotRowT
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx

open scoped BigOperators

/-- The scaled exponential linear unit at one element: the printed chain read at the index is the scalar
    spelling, every pointwise operation being its scalar one at the element and a broadcast scalar its value. -/
theorem selu_apply (x : FVec Ideal S50000x64 .f32) (i : S50000x64.Idx) :
    RefRun.selu (F := Ideal) x i = Cert.SeluScalar.ref (x i) := rfl

/-- A vector of 64 made a row and the row repeated down the 50000 rows, read at (n, o), is the vector at o. -/
theorem row_apply (v : FVec Ideal S64 .f32) (n : Fin 50000) (o : Fin 64) :
    broadcastInDim S50000x64 ![0, 1] bcast_S1x64_S50000x64_0_1 (broadcastInDim S1x64 ![1] bcast_S64_S1x64_1 v) (ix2 n o)
      = v (ix1 o) := by
  rw [broadcastInDim_apply ![0, 1] bcast_S1x64_S50000x64_0_1 _ (ix2 n o) (ix2 (0 : Fin 1) o) (fun a => by fin_cases a <;> rfl),
    broadcastInDim_apply ![1] bcast_S64_S1x64_1 v (ix2 (0 : Fin 1) o) (ix1 o) (fun a => by fin_cases a; rfl)]

/-- The result at (n, o): the scalar unit of the dense product there times the column's scale, plus the
    aggregation there, plus the column's bias. -/
theorem out_apply (f : FVec Ideal S50000x64 .f32) (w : FVec Ideal S64x64 .f32) (b sw : FVec Ideal S64 .f32)
    (ew : FVec Ideal S800000 .f32) (src dst : IVec S800000 32) (n : Fin 50000) (o : Fin 64) :
    out (F := Ideal) f w b sw ew src dst (ix2 n o)
      = Cert.SeluScalar.ref (hidden (F := Ideal) f w (ix2 n o) * sw (ix1 o)
          + agg (F := Ideal) (hidden (F := Ideal) f w) ew src dst (ix2 n o) + b (ix1 o)) := by
  unfold RefRun.out
  rw [selu_apply, addf_apply, addf_apply, mulf_apply, row_apply, row_apply]

/-- The dense product at (n, o): row n of the features against ROW o of the weights, summed over the 64
    contracted coordinates. -/
theorem hidden_apply (f : FVec Ideal S50000x64 .f32) (w : FVec Ideal S64x64 .f32) (n : Fin 50000) (o : Fin 64) :
    hidden (F := Ideal) f w (ix2 n o) = ∑ k : Fin 64, f (ix2 n k) * w (ix2 o k) := by
  refine (Ideal.dotGeneral_apply dot_S50000x64_S64x64_S50000x64_1_1_0_0_n_n none .single f w (ix2 n o)).trans ?_
  exact DotRowT.sum_contr dot_S50000x64_S64x64_S50000x64_1_1_0_0_n_n rfl rfl rfl rfl (fun _ _ => rfl) (fun _ _ => rfl) f w n o

end Cert.ReferenceIdeal.RefRead

end
-- ==== Proof.Bridge.lean ====
/-
  The two programs compute one function.

  Index by index over the 50000 × 64 result. The kernel program's entry (n, o) sits, lane-packed, at row n / 2 and
  lane (n mod 2) · 64 + o of the combine region's result, where the packed hidden features and the packed aggregate read
  their own entries (n, o) and the doubled scale and bias rows read their entries o: so it is SELU, in the kernel's
  spelling, of  h[n, o] · scale[o] + agg[n, o] + bias[o].  The reference's entry (n, o) is SELU, in its own spelling, of
  the same sum. The two SELU spellings agree on every extended real. The hidden features agree: the kernel's product with
  the transposed weight and the reference's contraction over both second axes are the same sum over k of
  features[n, k] · weight[o, k], term by term. The aggregates are the same host operations applied to equal hidden
  features (a change of float format being the identity), so they are equal without looking inside the gather or the
  scatter-add. No finiteness of the inputs is used.
-/
import proofs.«129786_j78821239816696_2_alg».proof.Proof.KValue
import proofs.«129786_j78821239816696_2_alg».proof.Proof.Layout
import proofs.«129786_j78821239816696_2_alg».proof.Proof.RefRead

noncomputable section

namespace Cert.Proof.Bridge

open Idealize.ShloMosaic Idealize.ShloMosaic.ValueIdx
open Cert.KernelIdeal.Hand

/-- The hidden features: features[n, ·] against weight[o, ·], on both sides. -/
theorem hidden_eq (f : FVec Ideal Cert.KernelIdeal.S50000x64 .f32) (w : FVec Ideal Cert.KernelIdeal.S64x64 .f32) :
    hiddenK f w = Cert.ReferenceIdeal.RefRun.hidden (F := Ideal) f w := by
  funext i
  obtain ⟨n, o, rfl⟩ : ∃ (n : Fin 50000) (o : Fin 64), i = ix2 n o := ⟨i 0, i 1, eq_ix2 i⟩
  refine Eq.trans ?_ (Cert.ReferenceIdeal.RefRead.hidden_apply f w n o).symm
  show ∑ k : Fin 64, f (ix2 n k) * weightT w (ix2 k o) = _
  exact Finset.sum_congr rfl fun k _ => by rw [weightT_apply]

attribute [local irreducible] Host.gather Host.scatterAdd in
/-- The aggregate is the same chain of host operations on both sides. -/
theorem agg_eq (h : FVec Ideal Cert.KernelIdeal.S50000x64 .f32) (ew : FVec Ideal Cert.KernelIdeal.S800000 .f32)
    (src dst : IVec Cert.KernelIdeal.S800000 32) :
    aggK h ew src dst = Cert.ReferenceIdeal.RefRun.agg (F := Ideal) h ew src dst := by
  unfold aggK Cert.ReferenceIdeal.RefRun.agg
  rfl

/-- The results agree at every index. -/
theorem out_eq (f : FVec Ideal Cert.KernelIdeal.S50000x64 .f32) (w : FVec Ideal Cert.KernelIdeal.S64x64 .f32)
    (b sw : FVec Ideal Cert.KernelIdeal.S64 .f32) (ew : FVec Ideal Cert.KernelIdeal.S800000 .f32)
    (src dst : IVec Cert.KernelIdeal.S800000 32) :
    kernelOut f w b sw ew src dst = Cert.ReferenceIdeal.RefRun.out (F := Ideal) f w b sw ew src dst := by
  funext i
  obtain ⟨n, o, rfl⟩ : ∃ (n : Fin 50000) (o : Fin 64), i = ix2 n o := ⟨i 0, i 1, eq_ix2 i⟩
  have hn : n.val < 50000 := n.isLt
  have ho : o.val < 64 := o.isLt
  obtain ⟨r, hr⟩ : ∃ r : Fin 25000, r.val = n.val / 2 := ⟨⟨n.val / 2, by omega⟩, rfl⟩
  obtain ⟨cc, hc⟩ : ∃ cc : Fin 128, cc.val = (n.val % 2) * 64 + o.val := ⟨⟨(n.val % 2) * 64 + o.val, by omega⟩, rfl⟩
  have hoc : o.val = cc.val % 64 := by omega
  rw [Cert.ReferenceIdeal.RefRead.out_apply, ← Cert.SeluScalar.ker_eq_ref, ← hidden_eq, ← agg_eq]
  unfold kernelOut
  rw [unpack_apply _ n o r cc hr hc]
  show Cert.SeluScalar.ker
      (shapeCast Cert.KernelIdeal.S25000x128 (hiddenK f w) Cert.KernelIdeal.Facts₀.shapeCasts_S50000x64_S25000x128 (ix2 r cc)
          * packRow sw (ix2 (0 : Fin 1) cc)
        + shapeCast Cert.KernelIdeal.S25000x128 (aggK (hiddenK f w) ew src dst) Cert.KernelIdeal.Facts₀.shapeCasts_S50000x64_S25000x128 (ix2 r cc)
        + packRow b (ix2 (0 : Fin 1) cc)) = _
  rw [pack_apply _ n o r cc hr hc, pack_apply _ n o r cc hr hc, packRow_apply sw cc o hoc, packRow_apply b cc o hoc]

end Cert.Proof.Bridge

end
-- ==== Proof.lean ====
/-
  The certificate of a graph-convolution layer: a linear transform, a weighted neighbour aggregation over an edge list, a
  per-feature skip scale and bias, and SELU — two tiled kernels around the host's gather and scatter-add — against its
  plain reference, over the extended reals.

  The three frames: the two kernel programs' are the generated frame proofs; the reference's is its run with the result
  dropped. The idealization rewrote nothing, so it preserves the kernel trivially. The two idealized programs end with
  equal results: the kernel program's result array is one closed function of the seven arguments (the run read back through
  its five segments), the reference's is another (its forty-three host operations folded), and the two are the same
  function index by index; the precondition is not needed for that.
-/
import proofs.«129786_j78821239816696_2_alg».proof.Defs
import proofs.«129786_j78821239816696_2_alg».proof.Proof.Gen.Kernel
import proofs.«129786_j78821239816696_2_alg».proof.Proof.Gen.Kernel.Frame
import proofs.«129786_j78821239816696_2_alg».proof.Proof.Gen.KernelIdeal
import proofs.«129786_j78821239816696_2_alg».proof.Proof.Gen.KernelIdeal.Frame
import proofs.«129786_j78821239816696_2_alg».proof.Proof.Gen.ReferenceIdeal
import proofs.«129786_j78821239816696_2_alg».proof.Proof.Gen.Pre_finite_inputs
import proofs.«129786_j78821239816696_2_alg».proof.Proof.KValue
import proofs.«129786_j78821239816696_2_alg».proof.Proof.RefRun
import proofs.«129786_j78821239816696_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end at one function of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6⟩ := hagree c
  rw [a0, a1, a2, a3, a4, a5, a6]
  exact (Cert.Proof.Bridge.out_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
